-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x3 : Shape := ⟨4, ![32, 512, 512, 3]⟩
abbrev S32x512x512x1 : Shape := ⟨4, ![32, 512, 512, 1]⟩
abbrev S_ : Shape := ⟨0, ![]⟩

class Facts : Prop where
  bcast_S_S32x512x512x3 : S_.BroadcastsInDim S32x512x512x3 (![] : Fin 0 → Fin S32x512x512x3.rank)
  reducesTo_S32x512x512x3_S_d0_1_2_3 : S32x512x512x3.ReducesTo [0, 1, 2, 3] S_
  h_S_ : 0 < S_.numel
  bcast_S_S32x512x512x1 : S_.BroadcastsInDim S32x512x512x1 (![] : Fin 0 → Fin S32x512x512x1.rank)
  reducesTo_S32x512x512x1_S_d0_1_2_3 : S32x512x512x1.ReducesTo [0, 1, 2, 3] S_

variable [Facts]

def fn {F : FTy → Type} [FloatOps F] (main_arg0 : FVec F S32x512x512x3 .f32) (main_arg1 : FVec F S32x512x512x1 .f32) : IVec S_ 1 :=
  let main_v0 : FVec F S32x512x512x3 .f32 := Host.absf main_arg0
  let main_cst : FVec F S_ .f32 := constant S_ .f32 0x7F800000#32
  let main_v1 : FVec F S32x512x512x3 .f32 := broadcastInDim S32x512x512x3 ![] bcast_S_S32x512x512x3 main_cst
  let main_v2 : IVec S32x512x512x3 1 := cmpf .olt main_v0 main_v1
  let main_c : IVec S_ 1 := constantI S_ 1 1#1
  let main_v3 : IVec S_ 1 := (fun x v => Host.reduce IntOp.andi x v reducesTo_S32x512x512x3_S_d0_1_2_3 h_S_) main_v2 main_c
  let main_v4 : FVec F S32x512x512x1 .f32 := Host.absf main_arg1
  let main_cst_0 : FVec F S_ .f32 := constant S_ .f32 0x7F800000#32
  let main_v5 : FVec F S32x512x512x1 .f32 := broadcastInDim S32x512x512x1 ![] bcast_S_S32x512x512x1 main_cst_0
  let main_v6 : IVec S32x512x512x1 1 := cmpf .olt main_v4 main_v5
  let main_c_1 : IVec S_ 1 := constantI S_ 1 1#1
  let main_v7 : IVec S_ 1 := (fun x v => Host.reduce IntOp.andi x v reducesTo_S32x512x512x1_S_d0_1_2_3 h_S_) main_v6 main_c_1
  let main_v8 : IVec S_ 1 := andi main_v3 main_v7
  main_v8
-- ==== Kernel.lean ====
abbrev S32x512x512x3 : Shape := ⟨4, ![32, 512, 512, 3]⟩
abbrev S32x512x512x1 : Shape := ⟨4, ![32, 512, 512, 1]⟩
abbrev S32x256x2x256x2x3 : Shape := ⟨6, ![32, 256, 2, 256, 2, 3]⟩
abbrev S32x256x2x256x2x1 : Shape := ⟨6, ![32, 256, 2, 256, 2, 1]⟩
abbrev S32x256x256x13 : Shape := ⟨4, ![32, 256, 256, 13]⟩
abbrev S1x256x2x256x2x3 : Shape := ⟨6, ![1, 256, 2, 256, 2, 3]⟩
abbrev S1x256x2x256x2x1 : Shape := ⟨6, ![1, 256, 2, 256, 2, 1]⟩
abbrev S1x256x256x13 : Shape := ⟨4, ![1, 256, 256, 13]⟩
abbrev S1x256x1x256x1x3 : Shape := ⟨6, ![1, 256, 1, 256, 1, 3]⟩
abbrev S256x256x3 : Shape := ⟨3, ![256, 256, 3]⟩
abbrev S256x256x1 : Shape := ⟨3, ![256, 256, 1]⟩
abbrev S256x256x4 : Shape := ⟨3, ![256, 256, 4]⟩
abbrev S256x256x12 : Shape := ⟨3, ![256, 256, 12]⟩
abbrev S1x256x1x256x1x1 : Shape := ⟨6, ![1, 256, 1, 256, 1, 1]⟩
abbrev S256x256x13 : Shape := ⟨3, ![256, 256, 13]⟩

abbrev nBuf : Space → Nat
  | .hbm => 5
  | .vmem => 6
  | .smem => 0
  | _ => 0

abbrev bufTy : (tb : Table) → Fin (tcTables nBuf tb) → BufTy
  | .hbm, ⟨0, _⟩ => ⟨S32x512x512x3, .f32⟩
  | .hbm, ⟨1, _⟩ => ⟨S32x512x512x1, .f32⟩
  | .hbm, ⟨2, _⟩ => ⟨S32x256x2x256x2x3, .f32⟩
  | .hbm, ⟨3, _⟩ => ⟨S32x256x2x256x2x1, .f32⟩
  | .hbm, ⟨4, _⟩ => ⟨S32x256x256x13, .f32⟩
  | .local _ .vmem, ⟨0, _⟩ => ⟨S1x256x2x256x2x3, .f32⟩
  | .local _ .vmem, ⟨1, _⟩ => ⟨S1x256x2x256x2x3, .f32⟩
  | .local _ .vmem, ⟨2, _⟩ => ⟨S1x256x2x256x2x1, .f32⟩
  | .local _ .vmem, ⟨3, _⟩ => ⟨S1x256x2x256x2x1, .f32⟩
  | .local _ .vmem, ⟨4, _⟩ => ⟨S1x256x256x13, .f32⟩
  | .local _ .vmem, ⟨5, _⟩ => ⟨S1x256x256x13, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_1 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x2x256x2x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2x256x2x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x512x512x3_S32x256x2x256x2x3 : S32x512x512x3.ShapeCasts S32x256x2x256x2x3
  shapeCasts_S32x512x512x1_S32x256x2x256x2x1 : S32x512x512x1.ShapeCasts S32x256x2x256x2x1
  inb_S1x256x2x256x2x3_S1x256x1x256x1x3_0_0_0_0_0_0 : ∀ a, (![0, 0, 0, 0, 0, 0] : Fin 6 → Nat) a + S1x256x1x256x1x3.size a ≤ S1x256x2x256x2x3.size a
  h_S1x256x1x256x1x3 : 0 < S1x256x1x256x1x3.numel
  shapeCasts_S1x256x1x256x1x3_S256x256x3 : S1x256x1x256x1x3.ShapeCasts S256x256x3
  inb_S1x256x2x256x2x3_S1x256x1x256x1x3_0_0_1_0_0_0 : ∀ a, (![0, 0, 1, 0, 0, 0] : Fin 6 → Nat) a + S1x256x1x256x1x3.size a ≤ S1x256x2x256x2x3.size a
  inb_S1x256x2x256x2x3_S1x256x1x256x1x3_0_0_0_0_1_0 : ∀ a, (![0, 0, 0, 0, 1, 0] : Fin 6 → Nat) a + S1x256x1x256x1x3.size a ≤ S1x256x2x256x2x3.size a
  inb_S1x256x2x256x2x3_S1x256x1x256x1x3_0_0_1_0_1_0 : ∀ a, (![0, 0, 1, 0, 1, 0] : Fin 6 → Nat) a + S1x256x1x256x1x3.size a ≤ S1x256x2x256x2x3.size a
  slices_S256x256x3_o0_0_0_S256x256x1 : S256x256x3.Slices ![0, 0, 0] S256x256x1
  concatenates_S256x256x1_S256x256x1_S256x256x1_S256x256x1_S256x256x4_d2 : Shape.Concatenates [S256x256x1, S256x256x1, S256x256x1, S256x256x1] S256x256x4 2
  slices_S256x256x3_o0_0_1_S256x256x1 : S256x256x3.Slices ![0, 0, 1] S256x256x1
  slices_S256x256x3_o0_0_2_S256x256x1 : S256x256x3.Slices ![0, 0, 2] S256x256x1
  concatenates_S256x256x4_S256x256x4_S256x256x4_S256x256x12_d2 : Shape.Concatenates [S256x256x4, S256x256x4, S256x256x4] S256x256x12 2
  inb_S1x256x2x256x2x1_S1x256x1x256x1x1_0_0_0_0_0_0 : ∀ a, (![0, 0, 0, 0, 0, 0] : Fin 6 → Nat) a + S1x256x1x256x1x1.size a ≤ S1x256x2x256x2x1.size a
  h_S1x256x1x256x1x1 : 0 < S1x256x1x256x1x1.numel
  shapeCasts_S1x256x1x256x1x1_S256x256x1 : S1x256x1x256x1x1.ShapeCasts S256x256x1
  inb_S1x256x2x256x2x1_S1x256x1x256x1x1_0_0_1_0_0_0 : ∀ a, (![0, 0, 1, 0, 0, 0] : Fin 6 → Nat) a + S1x256x1x256x1x1.size a ≤ S1x256x2x256x2x1.size a
  inb_S1x256x2x256x2x1_S1x256x1x256x1x1_0_0_0_0_1_0 : ∀ a, (![0, 0, 0, 0, 1, 0] : Fin 6 → Nat) a + S1x256x1x256x1x1.size a ≤ S1x256x2x256x2x1.size a
  inb_S1x256x2x256x2x1_S1x256x1x256x1x1_0_0_1_0_1_0 : ∀ a, (![0, 0, 1, 0, 1, 0] : Fin 6 → Nat) a + S1x256x1x256x1x1.size a ≤ S1x256x2x256x2x1.size a
  concatenates_S256x256x12_S256x256x1_S256x256x13_d2 : Shape.Concatenates [S256x256x12, S256x256x1] S256x256x13 2
  inb_S1x256x256x13_S1x256x256x13_0_0_0_0 : ∀ a, (![0, 0, 0, 0] : Fin 4 → Nat) a + S1x256x256x13.size a ≤ S1x256x256x13.size a
  h_S1x256x256x13 : 0 < S1x256x256x13.numel
  shapeCasts_S1x256x256x13_S256x256x13 : S1x256x256x13.ShapeCasts S256x256x13
  shapeCasts_S256x256x13_S1x256x256x13 : S256x256x13.ShapeCasts S1x256x256x13
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2x256x2x3.size a ≤ S32x256x2x256x2x3.size a
  hwx0_0 : ∀ i : grid0.Coords, EltTy.bits .f32 = 32 ∨ (Rect.block (s := S32x256x2x256x2x3) S1x256x2x256x2x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2x256x2x1.size a ≤ S32x256x2x256x2x1.size a
  hwx0_1 : ∀ i : grid0.Coords, EltTy.bits .f32 = 32 ∨ (Rect.block (s := S32x256x2x256x2x1) S1x256x2x256x2x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256x13.size a ≤ S32x256x256x13.size a
  hwx0_2 : ∀ i : grid0.Coords, EltTy.bits .f32 = 32 ∨ (Rect.block (s := S32x256x256x13) S1x256x256x13.size (cc0_transform_2 i) (hinb0_2 i)).WholeWords (EltTy.packing .f32)

variable [Facts₀]

abbrev win0_0 : Pipeline.Window sig grid0 :=
  Pipeline.Window.ofSpec (Memref.whole main_v0) S1x256x2x256x2x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x2x256x2x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x256x13.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x512x3 : Shape := ⟨4, ![32, 512, 512, 3]⟩
abbrev S32x512x512x1 : Shape := ⟨4, ![32, 512, 512, 1]⟩
abbrev S32x256x2x256x2x3 : Shape := ⟨6, ![32, 256, 2, 256, 2, 3]⟩
abbrev S32x256x256x3x2x2 : Shape := ⟨6, ![32, 256, 256, 3, 2, 2]⟩
abbrev S32x256x256x12 : Shape := ⟨4, ![32, 256, 256, 12]⟩
abbrev S32x256x2x256x2x1 : Shape := ⟨6, ![32, 256, 2, 256, 2, 1]⟩
abbrev S_ : Shape := ⟨0, ![]⟩
abbrev S32x256x256x1 : Shape := ⟨4, ![32, 256, 256, 1]⟩
abbrev S32x256x256x13 : Shape := ⟨4, ![32, 256, 256, 13]⟩

abbrev nBuf : Space → Nat
  | .hbm => 12
  | .vmem => 0
  | .smem => 0
  | _ => 0

abbrev bufTy : (tb : Table) → Fin (tcTables nBuf tb) → BufTy
  | .hbm, ⟨0, _⟩ => ⟨S32x512x512x3, .f32⟩
  | .hbm, ⟨1, _⟩ => ⟨S32x512x512x1, .f32⟩
  | .hbm, ⟨2, _⟩ => ⟨S32x256x2x256x2x3, .f32⟩
  | .hbm, ⟨3, _⟩ => ⟨S32x256x256x3x2x2, .f32⟩
  | .hbm, ⟨4, _⟩ => ⟨S32x256x256x12, .f32⟩
  | .hbm, ⟨5, _⟩ => ⟨S32x256x2x256x2x1, .f32⟩
  | .hbm, ⟨6, _⟩ => ⟨S_, .f32⟩
  | .hbm, ⟨7, _⟩ => ⟨S32x256x256x1, .f32⟩
  | .hbm, ⟨8, _⟩ => ⟨S_, .f32⟩
  | .hbm, ⟨9, _⟩ => ⟨S32x256x256x1, .f32⟩
  | .hbm, ⟨10, _⟩ => ⟨S32x256x256x1, .f32⟩
  | .hbm, ⟨11, _⟩ => ⟨S32x256x256x13, .f32⟩
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  shapeCasts_S32x512x512x3_S32x256x2x256x2x3 : S32x512x512x3.ShapeCasts S32x256x2x256x2x3
  transposes_S32x256x2x256x2x3_S32x256x256x3x2x2_0_1_3_5_4_2 : S32x256x2x256x2x3.Transposes [0, 1, 3, 5, 4, 2] S32x256x256x3x2x2
  shapeCasts_S32x256x256x3x2x2_S32x256x256x12 : S32x256x256x3x2x2.ShapeCasts S32x256x256x12
  shapeCasts_S32x512x512x1_S32x256x2x256x2x1 : S32x512x512x1.ShapeCasts S32x256x2x256x2x1
  reducesTo_S32x256x2x256x2x1_S32x256x256x1_d2_4 : S32x256x2x256x2x1.ReducesTo [2, 4] S32x256x256x1
  h_S_ : 0 < S_.numel
  bcast_S_S32x256x256x1 : S_.BroadcastsInDim S32x256x256x1 (![] : Fin 0 → Fin S32x256x256x1.rank)
  concatenates_S32x256x256x12_S32x256x256x1_S32x256x256x13_d3 : Shape.Concatenates [S32x256x256x12, S32x256x256x1] S32x256x256x13 3

variable [Facts₀]

class Facts : Prop extends Facts₀ where

variable [Facts]
-- ==== Proof.Joins.lean ====
/-
  A 2×2 pixel-unshuffle tile is assembled from channel slices by joins along the channel axis, between casts that
  drop or add unit axes. Each of those layout operations is read here at ONE index of its result, over the literal
  extents of a 256 × 256 tile: which operand it reads, and at which index.
-/
import Idealize.ShloMosaic.Lib.Pipeline.Value
import Idealize.ShloMosaic.Lib.ValueIdx
import Idealize.ShloMosaic.Lib.ValueIdxRank6

namespace Cert.PixelUnshuffle

open Idealize.ShloMosaic Idealize.ShloMosaic.ValueIdx

variable {α : Type}

/-- A 256 × 256 tile with 1, 3, 4, 12 or 13 channels. -/
abbrev T1 : Shape := ⟨3, ![256, 256, 1]⟩
abbrev T3 : Shape := ⟨3, ![256, 256, 3]⟩
abbrev T4 : Shape := ⟨3, ![256, 256, 4]⟩
abbrev T12 : Shape := ⟨3, ![256, 256, 12]⟩
abbrev T13 : Shape := ⟨3, ![256, 256, 13]⟩
/-- One image's rows and columns split in pairs, a single sub-row and sub-column picked: 3 channels, or 1. -/
abbrev Q3 : Shape := ⟨6, ![1, 256, 1, 256, 1, 3]⟩
abbrev Q1 : Shape := ⟨6, ![1, 256, 1, 256, 1, 1]⟩
/-- The output tile under its unit batch axis. -/
abbrev B13 : Shape := ⟨4, ![1, 256, 256, 13]⟩

/-- Channel `c` of a 3-channel tile, as a 1-channel tile, at pixel (p, q). -/
theorem channel_apply (c : Nat) (hc : c < 3) (v : T3.Idx → α) (h : T3.Slices ![0, 0, c] T1) (p q : Fin 256) :
    extractStridedSlice T1 ![0, 0, c] v h (ix3 p q 0) = v (ix3 p q ⟨c, hc⟩) :=
  extractStridedSlice_apply _ v h _ _ fun a => match a with
    | ⟨0, _⟩ => by show p.val = 0 + p.val; omega
    | ⟨1, _⟩ => by show q.val = 0 + q.val; omega
    | ⟨2, _⟩ => by show c = c + 0; omega

/-- Four 1-channel tiles joined along the channel axis: channel `s` of the result is tile `s`. -/
theorem join4_apply (x0 x1 x2 x3 : T1.Idx → α) (h : Shape.Concatenates [T1, T1, T1, T1] T4 2) (p q : Fin 256) (s : Fin 4) :
    concatenate T4 2 [⟨T1, x0⟩, ⟨T1, x1⟩, ⟨T1, x2⟩, ⟨T1, x3⟩] h (ix3 p q s)
      = ![x0 (ix3 p q 0), x1 (ix3 p q 0), x2 (ix3 p q 0), x3 (ix3 p q 0)] s := by
  have hi : ∀ b : Fin T1.rank, b.cast (rfl : T1.rank = T4.rank) ≠ 2 →
      ∀ s : Fin 4, ((ix3 p q (0 : Fin 1) : T1.Idx) b).val = ((ix3 p q s : T4.Idx) (b.cast rfl)).val := fun b hb s =>
    match b with
    | ⟨0, _⟩ => rfl
    | ⟨1, _⟩ => rfl
    | ⟨2, _⟩ => absurd rfl hb
  match s with
  | ⟨0, _⟩ =>
    exact concatenate_apply_piece 2 [⟨T1, x0⟩, ⟨T1, x1⟩, ⟨T1, x2⟩, ⟨T1, x3⟩] h (ix3 p q _) 0 (by simp) T1 x0 rfl rfl 0 rfl
      (ix3 p q 0) (fun b hb => hi b hb _) rfl
  | ⟨1, _⟩ =>
    exact concatenate_apply_piece 2 [⟨T1, x0⟩, ⟨T1, x1⟩, ⟨T1, x2⟩, ⟨T1, x3⟩] h (ix3 p q _) 1 (by simp) T1 x1 rfl rfl 1 rfl
      (ix3 p q 0) (fun b hb => hi b hb _) rfl
  | ⟨2, _⟩ =>
    exact concatenate_apply_piece 2 [⟨T1, x0⟩, ⟨T1, x1⟩, ⟨T1, x2⟩, ⟨T1, x3⟩] h (ix3 p q _) 2 (by simp) T1 x2 rfl rfl 2 rfl
      (ix3 p q 0) (fun b hb => hi b hb _) rfl
  | ⟨3, _⟩ =>
    exact concatenate_apply_piece 2 [⟨T1, x0⟩, ⟨T1, x1⟩, ⟨T1, x2⟩, ⟨T1, x3⟩] h (ix3 p q _) 3 (by simp) T1 x3 rfl rfl 3 rfl
      (ix3 p q 0) (fun b hb => hi b hb _) rfl

/-- Channel `c` of four 3-channel tiles, joined in the order (sub-row 0, sub-column 0), (1, 0), (0, 1), (1, 1):
    channel `2 b + a` of the result is channel `c` of the tile at sub-row `a`, sub-column `b`. -/
theorem group_apply (c : Nat) (hc : c < 3) (w00 w10 w01 w11 : T3.Idx → α) (hs : T3.Slices ![0, 0, c] T1)
    (h : Shape.Concatenates [T1, T1, T1, T1] T4 2) (p q : Fin 256) (b a : Fin 2) :
    concatenate T4 2 [⟨T1, extractStridedSlice T1 ![0, 0, c] w00 hs⟩, ⟨T1, extractStridedSlice T1 ![0, 0, c] w10 hs⟩,
        ⟨T1, extractStridedSlice T1 ![0, 0, c] w01 hs⟩, ⟨T1, extractStridedSlice T1 ![0, 0, c] w11 hs⟩] h
        (ix3 p q (⟨2 * b.val + a.val, by omega⟩ : Fin 4))
      = ![![w00 (ix3 p q ⟨c, hc⟩), w10 (ix3 p q ⟨c, hc⟩)], ![w01 (ix3 p q ⟨c, hc⟩), w11 (ix3 p q ⟨c, hc⟩)]] b a := by
  refine (join4_apply _ _ _ _ h p q _).trans ?_
  match b, a with
  | ⟨0, _⟩, ⟨0, _⟩ => exact channel_apply c hc w00 hs p q
  | ⟨0, _⟩, ⟨1, _⟩ => exact channel_apply c hc w10 hs p q
  | ⟨1, _⟩, ⟨0, _⟩ => exact channel_apply c hc w01 hs p q
  | ⟨1, _⟩, ⟨1, _⟩ => exact channel_apply c hc w11 hs p q

/-- Three 4-channel tiles joined along the channel axis: channel `4 c + s` of the result is channel `s` of tile `c`. -/
theorem join3_apply (y0 y1 y2 : T4.Idx → α) (h : Shape.Concatenates [T4, T4, T4] T12 2) (p q : Fin 256) (c : Fin 3) (s : Fin 4) :
    concatenate T12 2 [⟨T4, y0⟩, ⟨T4, y1⟩, ⟨T4, y2⟩] h (ix3 p q (⟨4 * c.val + s.val, by omega⟩ : Fin 12))
      = ![y0 (ix3 p q s), y1 (ix3 p q s), y2 (ix3 p q s)] c := by
  have hi : ∀ b : Fin T4.rank, b.cast (rfl : T4.rank = T12.rank) ≠ 2 →
      ∀ k : Fin 12, ((ix3 p q s : T4.Idx) b).val = ((ix3 p q k : T12.Idx) (b.cast rfl)).val := fun b hb k =>
    match b with
    | ⟨0, _⟩ => rfl
    | ⟨1, _⟩ => rfl
    | ⟨2, _⟩ => absurd rfl hb
  match c with
  | ⟨0, _⟩ =>
    exact concatenate_apply_piece 2 [⟨T4, y0⟩, ⟨T4, y1⟩, ⟨T4, y2⟩] h (ix3 p q _) 0 (by simp) T4 y0 rfl rfl 0 rfl
      (ix3 p q s) (fun b hb => hi b hb _) (by show 0 + s.val = 4 * 0 + s.val; omega)
  | ⟨1, _⟩ =>
    exact concatenate_apply_piece 2 [⟨T4, y0⟩, ⟨T4, y1⟩, ⟨T4, y2⟩] h (ix3 p q _) 1 (by simp) T4 y1 rfl rfl 4 rfl
      (ix3 p q s) (fun b hb => hi b hb _) (by show 4 + s.val = 4 * 1 + s.val; omega)
  | ⟨2, _⟩ =>
    exact concatenate_apply_piece 2 [⟨T4, y0⟩, ⟨T4, y1⟩, ⟨T4, y2⟩] h (ix3 p q _) 2 (by simp) T4 y2 rfl rfl 8 rfl
      (ix3 p q s) (fun b hb => hi b hb _) (by show 8 + s.val = 4 * 2 + s.val; omega)

/-- A 12-channel tile joined with a 1-channel tile: the first 12 channels are the first tile's … -/
theorem join2_left (u : T12.Idx → α) (w : T1.Idx → α) (h : Shape.Concatenates [T12, T1] T13 2) (p q : Fin 256) (k : Fin 12) :
    concatenate T13 2 [⟨T12, u⟩, ⟨T1, w⟩] h (ix3 p q (⟨k.val, by omega⟩ : Fin 13)) = u (ix3 p q k) :=
  concatenate_pair_apply_left 2 u w h _ rfl (ix3 p q k) fun b => match b with
    | ⟨0, _⟩ => rfl
    | ⟨1, _⟩ => rfl
    | ⟨2, _⟩ => rfl

/-- … and channel 12 is the second tile's one channel. -/
theorem join2_right (u : T12.Idx → α) (w : T1.Idx → α) (h : Shape.Concatenates [T12, T1] T13 2) (p q : Fin 256) :
    concatenate T13 2 [⟨T12, u⟩, ⟨T1, w⟩] h (ix3 p q (12 : Fin 13)) = w (ix3 p q 0) :=
  concatenate_pair_apply_right 2 u w h _ rfl rfl (ix3 p q 0) (fun b hb => match b with
    | ⟨0, _⟩ => rfl
    | ⟨1, _⟩ => rfl
    | ⟨2, _⟩ => absurd rfl hb) rfl

/-- The picked sub-row and sub-column of one image, its unit axes dropped, at pixel (p, q) and channel `c`. -/
theorem dropUnits3_apply (v : Q3.Idx → α) (h : Q3.ShapeCasts T3) (p q : Fin 256) (c : Fin 3) :
    shapeCast T3 v h (ix3 p q c) = v (ix6 0 p 0 q 0 c) :=
  shapeCast_apply v h _ _ (by
    rw [Shape.rowMajor_val_six, Shape.rowMajor_val_three]
    show (((((0 : ℕ) * 256 + p.val) * 1 + 0) * 256 + q.val) * 1 + 0) * 3 + c.val = (p.val * 256 + q.val) * 3 + c.val
    omega)

/-- The same for a 1-channel map. -/
theorem dropUnits1_apply (v : Q1.Idx → α) (h : Q1.ShapeCasts T1) (p q : Fin 256) :
    shapeCast T1 v h (ix3 p q 0) = v (ix6 0 p 0 q 0 0) :=
  shapeCast_apply v h _ _ (by
    rw [Shape.rowMajor_val_six, Shape.rowMajor_val_three]
    show (((((0 : ℕ) * 256 + p.val) * 1 + 0) * 256 + q.val) * 1 + 0) * 1 + 0 = (p.val * 256 + q.val) * 1 + 0
    omega)

/-- The 13-channel tile under a unit batch axis reads the tile. -/
theorem addUnit13_apply (v : T13.Idx → α) (h : T13.ShapeCasts B13) (n : Fin 1) (p q : Fin 256) (k : Fin 13) :
    shapeCast B13 v h (ix4 n p q k) = v (ix3 p q k) :=
  shapeCast_apply v h _ _ (by
    rw [Shape.rowMajor_val_three, Shape.rowMajor_val_four]
    show (p.val * 256 + q.val) * 13 + k.val = ((n.val * 256 + p.val) * 256 + q.val) * 13 + k.val
    have := n.isLt
    omega)

/-! ## The whole arrays of the reference: 32 images -/

/-- The images transposed to (image, p, q, channel, sub-column, sub-row), and with those three axes merged. -/
abbrev A322 : Shape := ⟨6, ![32, 256, 256, 3, 2, 2]⟩
abbrev A12 : Shape := ⟨4, ![32, 256, 256, 12]⟩
abbrev A1 : Shape := ⟨4, ![32, 256, 256, 1]⟩
abbrev A13 : Shape := ⟨4, ![32, 256, 256, 13]⟩

/-- Merging (channel, sub-column, sub-row) into one axis: merged channel `4 c + (2 b + a)` reads (c, b, a). -/
theorem merge_apply (v : A322.Idx → α) (h : A322.ShapeCasts A12) (n : Fin 32) (p q : Fin 256) (c : Fin 3) (b a : Fin 2) :
    shapeCast A12 v h (ix4 n p q (⟨4 * c.val + (2 * b.val + a.val), by omega⟩ : Fin 12)) = v (ix6 n p q c b a) :=
  shapeCast_apply v h _ _ (by
    rw [Shape.rowMajor_val_six, Shape.rowMajor_val_four]
    show ((((n.val * 256 + p.val) * 256 + q.val) * 3 + c.val) * 2 + b.val) * 2 + a.val
      = ((n.val * 256 + p.val) * 256 + q.val) * 12 + (4 * c.val + (2 * b.val + a.val))
    omega)

/-- The 12 merged channels joined with the 1 pooled channel: the first 12 channels are the first array's … -/
theorem joinOut_left (u : A12.Idx → α) (w : A1.Idx → α) (h : Shape.Concatenates [A12, A1] A13 3)
    (n : Fin 32) (p q : Fin 256) (k : Fin 12) :
    concatenate A13 3 [⟨A12, u⟩, ⟨A1, w⟩] h (ix4 n p q (⟨k.val, by omega⟩ : Fin 13)) = u (ix4 n p q k) :=
  concatenate_pair_apply_left 3 u w h _ rfl (ix4 n p q k) fun b => match b with
    | ⟨0, _⟩ => rfl
    | ⟨1, _⟩ => rfl
    | ⟨2, _⟩ => rfl
    | ⟨3, _⟩ => rfl

/-- … and channel 12 is the second array's one channel. -/
theorem joinOut_right (u : A12.Idx → α) (w : A1.Idx → α) (h : Shape.Concatenates [A12, A1] A13 3)
    (n : Fin 32) (p q : Fin 256) :
    concatenate A13 3 [⟨A12, u⟩, ⟨A1, w⟩] h (ix4 n p q (12 : Fin 13)) = w (ix4 n p q 0) :=
  concatenate_pair_apply_right 3 u w h _ rfl rfl (ix4 n p q 0) (fun b hb => match b with
    | ⟨0, _⟩ => rfl
    | ⟨1, _⟩ => rfl
    | ⟨2, _⟩ => rfl
    | ⟨3, _⟩ => absurd rfl hb) rfl

end Cert.PixelUnshuffle
-- ==== Proof.Patch.lean ====
/-
  Pixel-unshuffle with a pooled map, as ONE function of the two arrays with their rows and columns split in pairs
  (row 2p + a, column 2q + b ↦ (p, a, q, b)). Output channel k < 12 of pixel (p, q) is image channel k / 4 at
  sub-row k % 2 and sub-column (k % 4) / 2; output channel 12 is the mean of the map's four entries of the 2 × 2
  patch. The mean is spelt as the sum times the float 0.25; dividing the sum by the float 4.0 is the same on every
  extended real, because both floats are exact: 0.25 denotes the real 1/4 and 4.0 the real 4.
-/
import Idealize.ShloMosaic.PureOps.Ideal.Laws
import Idealize.ShloMosaic.Lib.ValueIdx
import Idealize.ShloMosaic.Lib.ValueIdxRank6

noncomputable section

namespace Cert.PixelUnshuffle

open Idealize.ShloMosaic Idealize.ShloMosaic.ValueIdx

/-- `B` images, rows and columns split in pairs: (image, p, a, q, b, channel). -/
abbrev Img6 (B : Nat) : Shape := ⟨6, ![B, 256, 2, 256, 2, 3]⟩
/-- The maps, split the same way. -/
abbrev Map6 (B : Nat) : Shape := ⟨6, ![B, 256, 2, 256, 2, 1]⟩
/-- The result: (image, p, q, channel). -/
abbrev Out4 (B : Nat) : Shape := ⟨4, ![B, 256, 256, 13]⟩

variable {B : Nat}

/-- The float 0.25 denotes the real 1/4. -/
theorem quarter : Ideal.ofBits .f32 0x3E800000#32 = (((1 : ℝ) / 4 : ℝ) : EReal) := by
  simp [Ideal.ofBits, Ideal.ieee, -EReal.coe_mul]; norm_num

/-- The float 4.0 denotes the real 4. -/
theorem four : Ideal.ofBits .f32 0x40800000#32 = ((4 : ℝ) : EReal) := by
  simp [Ideal.ofBits, Ideal.ieee, -EReal.coe_mul]; norm_num

/-- Dividing by the float 4.0 is multiplying by the float 0.25, at the infinities too. -/
theorem div_four (x : EReal) :
    Ideal.div x (Ideal.ofBits .f32 0x40800000#32) = x * Ideal.ofBits .f32 0x3E800000#32 := by
  rw [four, quarter, Ideal.div_coe (by norm_num : (4 : ℝ) ≠ 0)]

/-- The mean of the map over the 2 × 2 patch of pixel (p, q): the four entries added sub-row first, times 0.25. -/
def patchMean (M : (Map6 B).Idx → EReal) (n : Fin B) (p q : Fin 256) : EReal :=
  (((M (ix6 n p 0 q 0 0) + M (ix6 n p 1 q 0 0)) + M (ix6 n p 0 q 1 0)) + M (ix6 n p 1 q 1 0))
    * Ideal.ofBits .f32 0x3E800000#32

/-- The result at image `n`, pixel (p, q), channel `k`. -/
def unshuffleAt (X : (Img6 B).Idx → EReal) (M : (Map6 B).Idx → EReal) (n : Fin B) (p q : Fin 256) (k : Fin 13) : EReal :=
  if k.val < 12 then
    X (ix6 n p (⟨k.val % 2, Nat.mod_lt _ (by decide)⟩ : Fin 2) q (⟨k.val % 4 / 2, by omega⟩ : Fin 2) (⟨k.val / 4 % 3, Nat.mod_lt _ (by decide)⟩ : Fin 3))
  else patchMean M n p q

/-- The result array. -/
def unshuffle (X : (Img6 B).Idx → EReal) (M : (Map6 B).Idx → EReal) : (Out4 B).Idx → EReal :=
  fun j => unshuffleAt X M (j 0) (j 1) (j 2) (j 3)

/-- An image channel `4 c + (2 b + a)` reads image channel `c` at sub-row `a`, sub-column `b`. -/
theorem unshuffleAt_image (X : (Img6 B).Idx → EReal) (M : (Map6 B).Idx → EReal) (n : Fin B) (p q : Fin 256)
    (c : Fin 3) (b a : Fin 2) :
    unshuffleAt X M n p q (⟨4 * c.val + (2 * b.val + a.val), by omega⟩ : Fin 13) = X (ix6 n p a q b c) := by
  unfold unshuffleAt
  rw [if_pos (show 4 * c.val + (2 * b.val + a.val) < 12 by omega)]
  congr 1
  funext g
  match g with
  | ⟨0, _⟩ => rfl
  | ⟨1, _⟩ => rfl
  | ⟨2, _⟩ => exact Fin.ext (by show (4 * c.val + (2 * b.val + a.val)) % 2 = a.val; omega)
  | ⟨3, _⟩ => rfl
  | ⟨4, _⟩ => exact Fin.ext (by show (4 * c.val + (2 * b.val + a.val)) % 4 / 2 = b.val; omega)
  | ⟨5, _⟩ => exact Fin.ext (by show (4 * c.val + (2 * b.val + a.val)) / 4 % 3 = c.val; omega)

/-- Every channel is an image channel `4 c + (2 b + a)` or channel 12. -/
theorem channel_cases (k : Fin 13) :
    (∃ (c : Fin 3) (b a : Fin 2), k = (⟨4 * c.val + (2 * b.val + a.val), by omega⟩ : Fin 13)) ∨ k = (12 : Fin 13) := by
  by_cases hk : k.val < 12
  · exact Or.inl ⟨⟨k.val / 4, by omega⟩, ⟨k.val % 4 / 2, by omega⟩, ⟨k.val % 2, Nat.mod_lt _ (by decide)⟩,
      Fin.ext (by show k.val = 4 * (k.val / 4) + (2 * (k.val % 4 / 2) + k.val % 2); omega)⟩
  · exact Or.inr (Fin.ext (by show k.val = 12; omega))

/-- Channel 12 is the patch mean. -/
theorem unshuffleAt_map (X : (Img6 B).Idx → EReal) (M : (Map6 B).Idx → EReal) (n : Fin B) (p q : Fin 256) :
    unshuffleAt X M n p q (12 : Fin 13) = patchMean M n p q := by
  unfold unshuffleAt
  exact if_neg (by decide)

end Cert.PixelUnshuffle

end
-- ==== Proof.KernelBlock.lean ====
/-
  What the kernel's body stores for ONE image, read at a pixel and a channel. The body loads the image block
  (1, p, a, q, b, channel) four times, once per sub-row `a` and sub-column `b`, in the order (0,0), (1,0), (0,1),
  (1,1); takes channel `c` of each; joins the four into a group and the three groups into 12 channels, so output
  channel 4 c + (2 b + a) is image channel `c` at sub-row `a`, sub-column `b`. It loads the map block the same four
  times, adds them in that order, multiplies by 0.25 and joins the result as channel 12. So the stored block is the
  pixel-unshuffle of the two blocks (a batch of one image).
-/
import proofs.«143314_j13666585936261_1_alg».proof.Proof.Gen.KernelIdeal.Frame
import proofs.«143314_j13666585936261_1_alg».proof.Proof.Joins
import proofs.«143314_j13666585936261_1_alg».proof.Proof.Patch

noncomputable section

namespace Cert.PixelUnshuffle

open Idealize.ShloMosaic Idealize.ShloMosaic.ValueIdx Cert.KernelIdeal Cert.KernelIdeal.Gen

/-- A load of the image block at sub-row `a` and sub-column `b` reads the block there. -/
theorem ld_image (x0 : Vec Ideal S1x256x2x256x2x3 .f32) (a b : Nat) (ha : a < 2) (hb : b < 2)
    (inb : ∀ d, (![0, 0, a, 0, b, 0] : Fin 6 → Nat) d + S1x256x1x256x1x3.size d ≤ S1x256x2x256x2x3.size d)
    (p q : Fin 256) (c : Fin 3) :
    View.ld x0 (Rect.unit (s := S1x256x2x256x2x3) ![0, 0, a, 0, b, 0] S1x256x1x256x1x3.size inb) (ix6 0 p 0 q 0 c)
      = x0 (ix6 0 p ⟨a, ha⟩ q ⟨b, hb⟩ c) := by
  show x0 _ = x0 _
  congr 1
  funext g
  apply Fin.ext
  match g with
  | ⟨0, _⟩ => show 0 + 1 * 0 = 0; omega
  | ⟨1, _⟩ => show 0 + 1 * p.val = p.val; omega
  | ⟨2, _⟩ => show a + 1 * 0 = a; omega
  | ⟨3, _⟩ => show 0 + 1 * q.val = q.val; omega
  | ⟨4, _⟩ => show b + 1 * 0 = b; omega
  | ⟨5, _⟩ => show 0 + 1 * c.val = c.val; omega

/-- The same for the map block. -/
theorem ld_map (x1 : Vec Ideal S1x256x2x256x2x1 .f32) (a b : Nat) (ha : a < 2) (hb : b < 2)
    (inb : ∀ d, (![0, 0, a, 0, b, 0] : Fin 6 → Nat) d + S1x256x1x256x1x1.size d ≤ S1x256x2x256x2x1.size d)
    (p q : Fin 256) :
    View.ld x1 (Rect.unit (s := S1x256x2x256x2x1) ![0, 0, a, 0, b, 0] S1x256x1x256x1x1.size inb) (ix6 0 p 0 q 0 0)
      = x1 (ix6 0 p ⟨a, ha⟩ q ⟨b, hb⟩ 0) := by
  show x1 _ = x1 _
  congr 1
  funext g
  apply Fin.ext
  match g with
  | ⟨0, _⟩ => show 0 + 1 * 0 = 0; omega
  | ⟨1, _⟩ => show 0 + 1 * p.val = p.val; omega
  | ⟨2, _⟩ => show a + 1 * 0 = a; omega
  | ⟨3, _⟩ => show 0 + 1 * q.val = q.val; omega
  | ⟨4, _⟩ => show b + 1 * 0 = b; omega
  | ⟨5, _⟩ => show 0 + 1 * 0 = 0; omega

/-- The four loaded image tiles at channel `c`, picked by sub-column `b` and sub-row `a`, are the block there. -/
theorem loads_image (x0 : Vec Ideal S1x256x2x256x2x3 .f32) (p q : Fin 256) (c : Fin 3) (b a : Fin 2) :
    ![![shapeCast S256x256x3 (View.ld x0 r0_0) Facts₀.shapeCasts_S1x256x1x256x1x3_S256x256x3 (ix3 p q c),
        shapeCast S256x256x3 (View.ld x0 r0_1) Facts₀.shapeCasts_S1x256x1x256x1x3_S256x256x3 (ix3 p q c)],
      ![shapeCast S256x256x3 (View.ld x0 r0_2) Facts₀.shapeCasts_S1x256x1x256x1x3_S256x256x3 (ix3 p q c),
        shapeCast S256x256x3 (View.ld x0 r0_3) Facts₀.shapeCasts_S1x256x1x256x1x3_S256x256x3 (ix3 p q c)]] b a
      = x0 (ix6 0 p a q b c) := by
  match b, a with
  | ⟨0, _⟩, ⟨0, _⟩ => exact (dropUnits3_apply _ _ p q c).trans (ld_image x0 0 0 (by decide) (by decide) _ p q c)
  | ⟨0, _⟩, ⟨1, _⟩ => exact (dropUnits3_apply _ _ p q c).trans (ld_image x0 1 0 (by decide) (by decide) _ p q c)
  | ⟨1, _⟩, ⟨0, _⟩ => exact (dropUnits3_apply _ _ p q c).trans (ld_image x0 0 1 (by decide) (by decide) _ p q c)
  | ⟨1, _⟩, ⟨1, _⟩ => exact (dropUnits3_apply _ _ p q c).trans (ld_image x0 1 1 (by decide) (by decide) _ p q c)

/-- The 12 image channels the body assembles: channel 4 c + (2 b + a) is image channel `c` at sub-row `a`,
    sub-column `b`. -/
theorem body_image (x0 : Vec Ideal S1x256x2x256x2x3 .f32) (p q : Fin 256) (c : Fin 3) (b a : Fin 2) :
    k0_pay2 (View.ld x0 r0_0) (View.ld x0 r0_1) (View.ld x0 r0_2) (View.ld x0 r0_3)
        (ix3 p q (⟨4 * c.val + (2 * b.val + a.val), by omega⟩ : Fin 12))
      = x0 (ix6 0 p a q b c) := by
  unfold k0_pay2
  refine (join3_apply _ _ _ _ p q c ⟨2 * b.val + a.val, by omega⟩).trans ?_
  match c with
  | ⟨0, _⟩ => exact (group_apply 0 (by decide) _ _ _ _ _ Facts₀.concatenates_S256x256x1_S256x256x1_S256x256x1_S256x256x1_S256x256x4_d2 p q b a).trans (loads_image x0 p q 0 b a)
  | ⟨1, _⟩ => exact (group_apply 1 (by decide) _ _ _ _ _ Facts₀.concatenates_S256x256x1_S256x256x1_S256x256x1_S256x256x1_S256x256x4_d2 p q b a).trans (loads_image x0 p q 1 b a)
  | ⟨2, _⟩ => exact (group_apply 2 (by decide) _ _ _ _ _ Facts₀.concatenates_S256x256x1_S256x256x1_S256x256x1_S256x256x1_S256x256x4_d2 p q b a).trans (loads_image x0 p q 2 b a)

/-- The pooled map channel the body computes: the patch's four entries added sub-row first, times 0.25. -/
theorem body_map (x1 : Vec Ideal S1x256x2x256x2x1 .f32) (p q : Fin 256) :
    mulf (addf (addf (addf (k0_pay3 (View.ld x1 r0_4))
          (shapeCast S256x256x1 (View.ld x1 r0_5) Facts₀.shapeCasts_S1x256x1x256x1x1_S256x256x1))
          (shapeCast S256x256x1 (View.ld x1 r0_6) Facts₀.shapeCasts_S1x256x1x256x1x1_S256x256x1))
          (shapeCast S256x256x1 (View.ld x1 r0_7) Facts₀.shapeCasts_S1x256x1x256x1x1_S256x256x1))
        (broadcast S256x256x1 (Scalar.ofBits (F := Ideal) .f32 0x3E800000#32)) (ix3 p q 0)
      = patchMean (B := 1) x1 0 p q := by
  have e4 : k0_pay3 (View.ld x1 r0_4) (ix3 p q 0) = x1 (ix6 0 p 0 q 0 0) :=
    (dropUnits1_apply _ _ p q).trans (ld_map x1 0 0 (by decide) (by decide) _ p q)
  have e5 : shapeCast S256x256x1 (View.ld x1 r0_5) Facts₀.shapeCasts_S1x256x1x256x1x1_S256x256x1 (ix3 p q 0)
      = x1 (ix6 0 p 1 q 0 0) :=
    (dropUnits1_apply _ _ p q).trans (ld_map x1 1 0 (by decide) (by decide) _ p q)
  have e6 : shapeCast S256x256x1 (View.ld x1 r0_6) Facts₀.shapeCasts_S1x256x1x256x1x1_S256x256x1 (ix3 p q 0)
      = x1 (ix6 0 p 0 q 1 0) :=
    (dropUnits1_apply _ _ p q).trans (ld_map x1 0 1 (by decide) (by decide) _ p q)
  have e7 : shapeCast S256x256x1 (View.ld x1 r0_7) Facts₀.shapeCasts_S1x256x1x256x1x1_S256x256x1 (ix3 p q 0)
      = x1 (ix6 0 p 1 q 1 0) :=
    (dropUnits1_apply _ _ p q).trans (ld_map x1 1 1 (by decide) (by decide) _ p q)
  show (((k0_pay3 (View.ld x1 r0_4) (ix3 p q 0)
        + shapeCast S256x256x1 (View.ld x1 r0_5) Facts₀.shapeCasts_S1x256x1x256x1x1_S256x256x1 (ix3 p q 0))
        + shapeCast S256x256x1 (View.ld x1 r0_6) Facts₀.shapeCasts_S1x256x1x256x1x1_S256x256x1 (ix3 p q 0))
        + shapeCast S256x256x1 (View.ld x1 r0_7) Facts₀.shapeCasts_S1x256x1x256x1x1_S256x256x1 (ix3 p q 0))
      * Ideal.ofBits .f32 0x3E800000#32 = _
  rw [e4, e5, e6, e7]
  rfl

/-- THE BLOCK the body stores, at pixel (p, q) and channel `k`: the pixel-unshuffle of the image block and the map
    block. -/
theorem body_apply (x0 : Vec Ideal S1x256x2x256x2x3 .f32) (x1 : Vec Ideal S1x256x2x256x2x1 .f32)
    (n : Fin 1) (p q : Fin 256) (k : Fin 13) :
    out0_2 x0 x1 (ix4 n p q k) = unshuffleAt (B := 1) x0 x1 n p q k := by
  obtain rfl : n = 0 := Subsingleton.elim _ _
  unfold out0_2
  rw [View.canon_unit_zero (funext fun a => by fin_cases a <;> rfl)]
  unfold k0_pay1
  refine (addUnit13_apply _ _ 0 p q k).trans ?_
  rcases channel_cases k with ⟨c, b, a, rfl⟩ | rfl
  · rw [unshuffleAt_image]
    exact (join2_left _ _ _ p q ⟨4 * c.val + (2 * b.val + a.val), by omega⟩).trans (body_image x0 p q c b a)
  · rw [unshuffleAt_map]
    exact (join2_right _ _ _ p q).trans (body_map x1 p q)

end Cert.PixelUnshuffle

end
-- ==== Proof.KernelArray.lean ====
/-
  From the kernel's blocks to its result array. Grid point `t` handles image `t`: its three blocks are image `t` of
  the split images, of the split maps and of the result, whole. What it writes back is the pixel-unshuffle of its two
  input blocks, which is image `t` of the pixel-unshuffle of the two split arrays; the 32 blocks cover the result
  array, so after the run the array IS that pixel-unshuffle. The split arrays are the arguments with rows and columns
  regrouped in pairs by the two reshapes that precede the launch.
-/
import proofs.«143314_j13666585936261_1_alg».proof.Proof.Gen.KernelIdeal.Value
import proofs.«143314_j13666585936261_1_alg».proof.Proof.KernelBlock
import Idealize.ShloMosaic.Lib.StableHlo.Run

noncomputable section

namespace Cert.PixelUnshuffle

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- Grid point `t`'s blocks are image `t`, whole: every window's block index is (t, 0, …, 0). -/
theorem block_indices : ∀ t : Fin cfg0.N,
    win0_0.index t (0 : Fin 6) = t.val ∧ win0_0.index t (1 : Fin 6) = 0 ∧ win0_0.index t (2 : Fin 6) = 0
    ∧ win0_0.index t (3 : Fin 6) = 0 ∧ win0_0.index t (4 : Fin 6) = 0 ∧ win0_0.index t (5 : Fin 6) = 0
    ∧ win0_1.index t (0 : Fin 6) = t.val ∧ win0_1.index t (1 : Fin 6) = 0 ∧ win0_1.index t (2 : Fin 6) = 0
    ∧ win0_1.index t (3 : Fin 6) = 0 ∧ win0_1.index t (4 : Fin 6) = 0 ∧ win0_1.index t (5 : Fin 6) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-- The image a grid point handles. -/
def image (t : Fin cfg0.N) : Fin 32 := ⟨t.val, lt_of_lt_of_eq t.isLt N_0⟩

/-- The image block at point `t` is image `t` of the split images. -/
theorem read_image (c : Dev nD) (t : Fin cfg0.N) (n : Fin 1) (p q : Fin 256) (a b : Fin 2) (ch : Fin 3) :
    (iblk m c 0 t : S1x256x2x256x2x3.Idx → EReal) (ix6 n p a q b ch) = V m c main_v0 (ix6 (image t) p a q b ch) := by
  show V m c main_v0 (((cfg0.win 0).blk t).view.emb (ix6 n p a q b ch)) = V m c main_v0 _
  refine congrArg (V m c main_v0) ?_
  obtain ⟨e0, e1, e2, e3, e4, e5, -⟩ := block_indices t
  have hn : n.val = 0 := by have := n.isLt; omega
  funext g
  apply Fin.ext
  match g with
  | ⟨0, _⟩ => show win0_0.index t (0 : Fin 6) * 1 + 1 * n.val = t.val; omega
  | ⟨1, _⟩ => show win0_0.index t (1 : Fin 6) * 256 + 1 * p.val = p.val; omega
  | ⟨2, _⟩ => show win0_0.index t (2 : Fin 6) * 2 + 1 * a.val = a.val; omega
  | ⟨3, _⟩ => show win0_0.index t (3 : Fin 6) * 256 + 1 * q.val = q.val; omega
  | ⟨4, _⟩ => show win0_0.index t (4 : Fin 6) * 2 + 1 * b.val = b.val; omega
  | ⟨5, _⟩ => show win0_0.index t (5 : Fin 6) * 3 + 1 * ch.val = ch.val; omega

/-- The map block at point `t` is image `t` of the split maps. -/
theorem read_map (c : Dev nD) (t : Fin cfg0.N) (n : Fin 1) (p q : Fin 256) (a b : Fin 2) (ch : Fin 1) :
    (iblk m c 1 t : S1x256x2x256x2x1.Idx → EReal) (ix6 n p a q b ch) = V m c main_v1 (ix6 (image t) p a q b ch) := by
  show V m c main_v1 (((cfg0.win 1).blk t).view.emb (ix6 n p a q b ch)) = V m c main_v1 _
  refine congrArg (V m c main_v1) ?_
  obtain ⟨-, -, -, -, -, -, e0, e1, e2, e3, e4, e5, -⟩ := block_indices t
  have hn : n.val = 0 := by have := n.isLt; omega
  funext g
  apply Fin.ext
  match g with
  | ⟨0, _⟩ => show win0_1.index t (0 : Fin 6) * 1 + 1 * n.val = t.val; omega
  | ⟨1, _⟩ => show win0_1.index t (1 : Fin 6) * 256 + 1 * p.val = p.val; omega
  | ⟨2, _⟩ => show win0_1.index t (2 : Fin 6) * 2 + 1 * a.val = a.val; omega
  | ⟨3, _⟩ => show win0_1.index t (3 : Fin 6) * 256 + 1 * q.val = q.val; omega
  | ⟨4, _⟩ => show win0_1.index t (4 : Fin 6) * 2 + 1 * b.val = b.val; omega
  | ⟨5, _⟩ => show win0_1.index t (5 : Fin 6) * 1 + 1 * ch.val = ch.val; omega

/-- The pixel-unshuffle of point `t`'s two blocks is image `t` of the pixel-unshuffle of the split arrays. -/
theorem block_unshuffle (c : Dev nD) (t : Fin cfg0.N) (n : Fin 1) (p q : Fin 256) (k : Fin 13) :
    unshuffleAt (B := 1) (iblk m c 0 t : S1x256x2x256x2x3.Idx → EReal) (iblk m c 1 t : S1x256x2x256x2x1.Idx → EReal) n p q k
      = unshuffleAt (B := 32) (V m c main_v0) (V m c main_v1) (image t) p q k := by
  rcases channel_cases k with ⟨ch, b, a, rfl⟩ | rfl
  · rw [unshuffleAt_image, unshuffleAt_image]
    exact read_image m c t n p q a b ch
  · rw [unshuffleAt_map, unshuffleAt_map]
    unfold patchMean
    rw [read_map m c t n p q 0 0 0, read_map m c t n p q 1 0 0, read_map m c t n p q 0 1 0, read_map m c t n p q 1 1 0]

/-- WHAT POINT `t` WRITES BACK is block `t` of the pixel-unshuffle of the split arrays. -/
theorem flushed_eq (c : Dev nD) (t : Fin cfg0.N) :
    (dats m 0 c).flushed 2 t
      = ((cfg0.win 2).blk t).view.read (Elt Ideal) (unshuffle (B := 32) (V m c main_v0) (V m c main_v1)) := by
  rw [Cert.KernelIdeal.Value.flushed2]
  funext y
  obtain ⟨n, p, q, k, rfl⟩ : ∃ (n : Fin 1) (p q : Fin 256) (k : Fin 13), (y : S1x256x256x13.Idx) = ix4 n p q k :=
    ⟨y 0, y 1, y 2, y 3, eq_ix4 (y : S1x256x256x13.Idx)⟩
  show out0_2 (iblk m c 0 t) (iblk m c 1 t) (ix4 n p q k)
    = unshuffle (B := 32) (V m c main_v0) (V m c main_v1) (((cfg0.win 2).blk t).view.emb (ix4 n p q k))
  have hemb : ((cfg0.win 2).blk t).view.emb (ix4 n p q k) = (ix4 (image t) p q k : S32x256x256x13.Idx) := by
    obtain ⟨-, -, -, -, -, -, -, -, -, -, -, -, e0, e1, e2, e3⟩ := block_indices t
    have hn : n.val = 0 := by have := n.isLt; omega
    funext g
    apply Fin.ext
    match g with
    | ⟨0, _⟩ => show win0_2.index t (0 : Fin 4) * 1 + 1 * n.val = t.val; omega
    | ⟨1, _⟩ => show win0_2.index t (1 : Fin 4) * 256 + 1 * p.val = p.val; omega
    | ⟨2, _⟩ => show win0_2.index t (2 : Fin 4) * 256 + 1 * q.val = q.val; omega
    | ⟨3, _⟩ => show win0_2.index t (3 : Fin 4) * 13 + 1 * k.val = k.val; omega
  rw [hemb]
  exact (body_apply (iblk m c 0 t) (iblk m c 1 t) n p q k).trans (block_unshuffle m c t n p q k)

/-- An index of the result array is in point `t`'s block iff each coordinate is in the block's range on its axis. -/
theorem mem_block (t : Fin cfg0.N) (i : S32x256x256x13.Idx) :
    i ∈ ((cfg0.win 2).blk t).view.set ↔ ∀ a : Fin 4, win0_2.index t a * S1x256x256x13.size a ≤ (i a).val
      ∧ (i a).val < win0_2.index t a * S1x256x256x13.size a + S1x256x256x13.size a := by
  show i ∈ ((View.whole main_v2).slice (win0_2.rect t)).set ↔ _
  rw [View.set_slice_whole, Rect.mem_set_unit]
  exact Iff.rfl

/-- Every index of the result array is in the block of the point that handles its image. -/
theorem covered (i : S32x256x256x13.Idx) :
    ∃ t : Fin cfg0.N, (cfg0.win 2).flush t = true ∧ i ∈ ((cfg0.win 2).blk t).view.set := by
  have h0 : (i 0).val < 32 := (i 0).isLt
  have h1 : (i 1).val < 256 := (i 1).isLt
  have h2 : (i 2).val < 256 := (i 2).isLt
  have h3 : (i 3).val < 13 := (i 3).isLt
  let t : Fin cfg0.N := ⟨(i 0).val, lt_of_lt_of_eq h0 N_0.symm⟩
  obtain ⟨-, -, -, -, -, -, -, -, -, -, -, -, e0, e1, e2, e3⟩ := block_indices t
  have et : t.val = (i 0).val := rfl
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 256 ≤ (i 1).val ∧ (i 1).val < win0_2.index t (1 : Fin 4) * 256 + 256; omega
  | ⟨2, _⟩ => show win0_2.index t (2 : Fin 4) * 256 ≤ (i 2).val ∧ (i 2).val < win0_2.index t (2 : Fin 4) * 256 + 256; omega
  | ⟨3, _⟩ => show win0_2.index t (3 : Fin 4) * 13 ≤ (i 3).val ∧ (i 3).val < win0_2.index t (3 : Fin 4) * 13 + 13; omega

/-- THE RESULT ARRAY after the run is the pixel-unshuffle of the split arrays as the launch finds them. -/
theorem final (c : Dev nD) :
    (dats m 0 c).arrAt 2 cfg0.N = unshuffle (B := 32) (V m c main_v0) (V m c main_v1) :=
  (dats m 0 c).arrAt_eq_of_cover 2 _ (fun t _ => flushed_eq m c t) covered

/-- The launch finds the split images: the first argument with its rows and columns regrouped in pairs. -/
theorem split_images (c : Dev nD) :
    (V m c main_v0 : S32x256x2x256x2x3.Idx → EReal)
      = shapeCast S32x256x2x256x2x3 (m ((c : Thread nD τ).loc main_arg0)) Facts₀.shapeCasts_S32x512x512x3_S32x256x2x256x2x3 := by
  dsimp only [Gen.V, Gen.hostOps0]; after_results; rfl

/-- The launch finds the split maps: the second argument regrouped the same way. -/
theorem split_maps (c : Dev nD) :
    (V m c main_v1 : S32x256x2x256x2x1.Idx → EReal)
      = shapeCast S32x256x2x256x2x1 (m ((c : Thread nD τ).loc main_arg1)) Facts₀.shapeCasts_S32x512x512x1_S32x256x2x256x2x1 := by
  dsimp only [Gen.V, Gen.hostOps0]; after_results; rfl

/-- THE KERNEL'S RUN: every weakly fair execution terminates with the result array at the pixel-unshuffle of the
    two arguments, rows and columns regrouped in pairs, and the arguments unchanged. -/
theorem run : θ_run defs (onTc (τ := τ) (main (F := Ideal))) ⟨m, fun _ => 0, ρ⟩ fun r => ∀ c : Dev nD,
      r.2.mem ((c : Thread nD τ).loc main_v2)
        = unshuffle (B := 32)
            (shapeCast S32x256x2x256x2x3 (m ((c : Thread nD τ).loc main_arg0)) Facts₀.shapeCasts_S32x512x512x3_S32x256x2x256x2x3)
            (shapeCast S32x256x2x256x2x1 (m ((c : Thread nD τ).loc main_arg1)) Facts₀.shapeCasts_S32x512x512x1_S32x256x2x256x2x1)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [split_images, split_maps])), (h c).2⟩)
    (Cert.KernelIdeal.Value.run_blocks m ρ)

end Cert.PixelUnshuffle

end
-- ==== Proof.PatchSum.lean ====
/-
  The host's sum of the split map over its sub-row and sub-column axes, read at a pixel: the source indices that
  drop to (n, p, q, 0) are exactly the four entries of the pixel's 2 × 2 patch, so the sum is the initial value plus
  those four entries (addition of extended reals is commutative and associative, so in any order).
-/
import Idealize.ShloMosaic.Lib.IdealHost
import Idealize.ShloMosaic.Lib.ValueIdxRank6
import Idealize.ShloMosaic.PureOps.Reduce

namespace Cert.PixelUnshuffle

open Idealize.ShloMosaic Idealize.ShloMosaic.ValueIdx

/-- The maps with rows and columns split in pairs, and pooled. -/
abbrev MapSplit : Shape := ⟨6, ![32, 256, 2, 256, 2, 1]⟩
abbrev MapPooled : Shape := ⟨4, ![32, 256, 256, 1]⟩

/-- Two split-map indices with equal coordinates are equal. -/
theorem ix6_congr {n p q : Nat} {a a' : Fin n} {b b' : Fin p} {c c' : Fin 2} {d d' : Fin q} {e e' : Fin 2} {f f' : Fin 1}
    (ha : a.val = a'.val) (hb : b.val = b'.val) (hc : c.val = c'.val) (hd : d.val = d'.val) (he : e.val = e'.val) :
    ix6 a b c d e f = ix6 a' b' c' d' e' f' := by
  obtain rfl := Fin.ext ha; obtain rfl := Fin.ext hb; obtain rfl := Fin.ext hc; obtain rfl := Fin.ext hd
  obtain rfl := Fin.ext he; obtain rfl := Subsingleton.elim f f'; rfl

/-- The source indices that drop to pixel (n, p, q) are the four entries of its patch. -/
theorem patch_indices (h : MapSplit.ReducesTo [2, 4] MapPooled) (n : Fin 32) (p q : Fin 256) :
    (Finset.univ.filter fun i : MapSplit.Idx => h.drop i = ix4 n p q 0)
      = {ix6 n p 0 q 0 0, ix6 n p 1 q 0 0, ix6 n p 0 q 1 0, ix6 n p 1 q 1 0} := by
  ext i
  simp only [Finset.mem_filter, Finset.mem_univ, true_and, Finset.mem_insert, Finset.mem_singleton]
  constructor
  · intro e
    have h0 : (i 0).val = n.val :=
      (h.drop_apply_val_of_eq i 0 0).symm.trans (congrArg (fun j : MapPooled.Idx => (j 0).val) e)
    have h1 : (i 1).val = p.val :=
      (h.drop_apply_val_of_eq i 1 1).symm.trans (congrArg (fun j : MapPooled.Idx => (j 1).val) e)
    have h3 : (i 3).val = q.val :=
      (h.drop_apply_val_of_eq i 2 3).symm.trans (congrArg (fun j : MapPooled.Idx => (j 2).val) e)
    have b2 : (i 2).val < 2 := (i 2).isLt
    have b4 : (i 4).val < 2 := (i 4).isLt
    rw [eq_ix6 i]
    rcases (by omega : (i 2).val = 0 ∨ (i 2).val = 1) with e2 | e2 <;>
      rcases (by omega : (i 4).val = 0 ∨ (i 4).val = 1) with e4 | e4
    · exact Or.inl (ix6_congr h0 h1 e2 h3 e4)
    · exact Or.inr (Or.inr (Or.inl (ix6_congr h0 h1 e2 h3 e4)))
    · exact Or.inr (Or.inl (ix6_congr h0 h1 e2 h3 e4))
    · exact Or.inr (Or.inr (Or.inr (ix6_congr h0 h1 e2 h3 e4)))
  · have key : ∀ (a b : Fin 2), h.drop (ix6 n p a q b 0) = ix4 n p q 0 := fun a b => by
      funext d
      apply Fin.ext
      match d with
      | ⟨0, _⟩ => exact h.drop_apply_val_of_eq _ 0 0
      | ⟨1, _⟩ => exact h.drop_apply_val_of_eq _ 1 1
      | ⟨2, _⟩ => exact h.drop_apply_val_of_eq _ 2 3
      | ⟨3, _⟩ => exact h.drop_apply_val_of_eq _ 3 5
    rintro (rfl | rfl | rfl | rfl) <;> exact key _ _

/-- The host's sum over the sub-row and sub-column axes at pixel (n, p, q): the initial value plus the patch's four
    entries, sub-row first. -/
theorem patch_sum (h : MapSplit.ReducesTo [2, 4] MapPooled) (M : MapSplit.Idx → EReal) (init : EReal)
    (n : Fin 32) (p q : Fin 256) :
    Ideal.hostReduceAdd h M init (ix4 n p q 0)
      = init + (((M (ix6 n p 0 q 0 0) + M (ix6 n p 1 q 0 0)) + M (ix6 n p 0 q 1 0)) + M (ix6 n p 1 q 1 0)) := by
  have ne : ∀ (a a' b b' : Fin 2), (a.val ≠ a'.val ∨ b.val ≠ b'.val) →
      (ix6 n p a q b (0 : Fin 1) : MapSplit.Idx) ≠ ix6 n p a' q b' 0 := fun a a' b b' hab e => by
    have e2 : a.val = a'.val := congrArg (fun j : MapSplit.Idx => (j 2).val) e
    have e4 : b.val = b'.val := congrArg (fun j : MapSplit.Idx => (j 4).val) e
    omega
  unfold Ideal.hostReduceAdd
  rw [patch_indices h n p q, Finset.sum_insert, Finset.sum_insert, Finset.sum_insert, Finset.sum_singleton]
  · congr 1
    simp only [add_assoc]
  · simp only [Finset.mem_singleton]
    exact ne 0 1 1 1 (Or.inl (by decide))
  · simp only [Finset.mem_insert, Finset.mem_singleton, not_or]
    exact ⟨ne 1 0 0 1 (Or.inl (by decide)), ne 1 1 0 1 (Or.inr (by decide))⟩
  · simp only [Finset.mem_insert, Finset.mem_singleton, not_or]
    exact ⟨ne 0 1 0 0 (Or.inl (by decide)), ne 0 0 0 1 (Or.inr (by decide)), ne 0 1 0 1 (Or.inl (by decide))⟩

end Cert.PixelUnshuffle
-- ==== Proof.RefArray.lean ====
/-
  The reference computes the pixel-unshuffle of the split arrays. Its image part splits rows and columns in
  pairs, moves (sub-column, sub-row) behind the channel axis and merges the three: merged channel 4 c + (2 b + a)
  is image channel `c` at sub-row `a`, sub-column `b`. Its map part sums the split map over the sub-row and
  sub-column axes, from 0, and divides by 4.0: the patch's four entries in any order, times 0.25. The two parts are
  joined along the channel axis.
-/
import proofs.«143314_j13666585936261_1_alg».proof.Proof.Gen.ReferenceIdeal.Read
import proofs.«143314_j13666585936261_1_alg».proof.Proof.Joins
import proofs.«143314_j13666585936261_1_alg».proof.Proof.Patch
import proofs.«143314_j13666585936261_1_alg».proof.Proof.PatchSum

noncomputable section

namespace Cert.PixelUnshuffle

open Idealize.ShloMosaic Idealize.ShloMosaic.ValueIdx Cert.ReferenceIdeal Cert.ReferenceIdeal.Read

/-- The transposition reads (image, p, q, c, b, a) at (image, p, a, q, b, c). -/
theorem transposed_idx (n : Fin 32) (p q : Fin 256) (c : Fin 3) (b a : Fin 2) :
    idx_main_v1 (ix6 n p q c b a) = ix6 n p a q b c := by
  funext g
  match g with
  | ⟨0, _⟩ => rfl
  | ⟨1, _⟩ => rfl
  | ⟨2, _⟩ => rfl
  | ⟨3, _⟩ => rfl
  | ⟨4, _⟩ => rfl
  | ⟨5, _⟩ => rfl

/-- The image part at merged channel 4 c + (2 b + a). -/
theorem ref_image (x0 : (⟨S32x512x512x3, .f32⟩ : BufTy).Contents (Elt Ideal)) (n : Fin 32) (p q : Fin 256)
    (c : Fin 3) (b a : Fin 2) :
    val_main_v2 (F := Ideal) x0 (ix4 n p q (⟨4 * c.val + (2 * b.val + a.val), by omega⟩ : Fin 12))
      = val_main_v0 (F := Ideal) x0 (ix6 n p a q b c) := by
  unfold val_main_v2
  refine (merge_apply _ _ n p q c b a).trans ?_
  rw [val_main_v1_apply, transposed_idx]

/-- The map part at a pixel: the patch mean. -/
theorem ref_map (x1 : (⟨S32x512x512x1, .f32⟩ : BufTy).Contents (Elt Ideal)) (n : Fin 32) (p q : Fin 256) :
    val_main_v6 (F := Ideal) x1 (ix4 n p q 0) = patchMean (B := 32) (val_main_v3 (F := Ideal) x1) n p q := by
  rw [val_main_v6_apply, val_main_v5_apply, val_main_cst_0_apply]
  unfold val_main_v4
  rw [hostReduceAdd_apply, val_main_cst_apply]
  show Ideal.div (Ideal.hostReduceAdd _ (val_main_v3 (F := Ideal) x1) (Ideal.ofBits .f32 0x00000000#32) (ix4 n p q 0))
    (Ideal.ofBits .f32 0x40800000#32) = _
  rw [patch_sum, Ideal.ofBits_zero_f32, zero_add, div_four]
  rfl

/-- THE REFERENCE'S RESULT is the pixel-unshuffle of the split images and the split maps. -/
theorem ref_eq (x0 : (⟨S32x512x512x3, .f32⟩ : BufTy).Contents (Elt Ideal))
    (x1 : (⟨S32x512x512x1, .f32⟩ : BufTy).Contents (Elt Ideal)) :
    val_main_v7 (F := Ideal) x0 x1 = unshuffle (B := 32) (val_main_v0 (F := Ideal) x0) (val_main_v3 (F := Ideal) x1) := by
  funext j
  obtain ⟨n, p, q, k, rfl⟩ : ∃ (n : Fin 32) (p q : Fin 256) (k : Fin 13), j = ix4 n p q k :=
    ⟨j 0, j 1, j 2, j 3, eq_ix4 j⟩
  show val_main_v7 (F := Ideal) x0 x1 (ix4 n p q k) = unshuffleAt _ _ n p q k
  unfold val_main_v7
  rcases channel_cases k with ⟨c, b, a, rfl⟩ | rfl
  · rw [unshuffleAt_image]
    exact (joinOut_left _ _ _ n p q ⟨4 * c.val + (2 * b.val + a.val), by omega⟩).trans (ref_image x0 n p q c b a)
  · rw [unshuffleAt_map]
    exact (joinOut_right _ _ _ n p q).trans (ref_map x1 n p q)

end Cert.PixelUnshuffle

end
-- ==== Proof.lean ====
/- Pixel-unshuffle (space to depth, 2 × 2) of 32 images of 512 × 512 × 3 with a 2 × 2 mean-pooled map as a 13th
   channel: a kernel that handles one image per grid point against the reference (reshape, transpose, reshape; sum over
   the patch, divide by 4; concatenate).

   Both programs first regroup rows and columns in pairs, (row 2p + a, column 2q + b) ↦ (p, a, q, b), by the same
   reshape of each argument. Over those split arrays both compute ONE function (Proof/Patch.lean `unshuffle`): output
   channel 4 c + (2 b + a) of pixel (p, q) is image channel c at sub-row a and sub-column b, and channel 12 is the
   mean of the map over the patch.
   · The kernel (Proof/KernelBlock.lean, Proof/KernelArray.lean): the body joins channel slices of four loads of the
     image block and adds four loads of the map block, times 0.25; point t's block is image t, and the 32 blocks
     cover the result.
   · The reference (Proof/RefArray.lean): the merged axis of the transposed images reads (c, b, a); the sum over the
     sub-row and sub-column axes is the patch's four entries (Proof/PatchSum.lean), and dividing by the float 4.0 is
     multiplying by the float 0.25 on every extended real, both floats being exact.
   Addition of extended reals is commutative and associative and no other law is used, so the inputs' finiteness is
   never opened. The idealization rewrote nothing, so `preserves` is `True`. The frames of the two kernel programs
   are the generated ones; the reference's frame is its generated run with the result dropped. -/
import proofs.«143314_j13666585936261_1_alg».proof.Defs
import proofs.«143314_j13666585936261_1_alg».proof.Proof.Gen.Kernel
import proofs.«143314_j13666585936261_1_alg».proof.Proof.Gen.Kernel.Skeleton
import proofs.«143314_j13666585936261_1_alg».proof.Proof.Gen.Kernel.Launch
import proofs.«143314_j13666585936261_1_alg».proof.Proof.Gen.Kernel.Points
import proofs.«143314_j13666585936261_1_alg».proof.Proof.Gen.Kernel.Frame
import proofs.«143314_j13666585936261_1_alg».proof.Proof.Gen.KernelIdeal
import proofs.«143314_j13666585936261_1_alg».proof.Proof.Gen.KernelIdeal.Skeleton
import proofs.«143314_j13666585936261_1_alg».proof.Proof.Gen.KernelIdeal.Launch
import proofs.«143314_j13666585936261_1_alg».proof.Proof.Gen.KernelIdeal.Points
import proofs.«143314_j13666585936261_1_alg».proof.Proof.Gen.KernelIdeal.Frame
import proofs.«143314_j13666585936261_1_alg».proof.Proof.Gen.ReferenceIdeal
import proofs.«143314_j13666585936261_1_alg».proof.Proof.Gen.Pre_finite_inputs
import proofs.«143314_j13666585936261_1_alg».proof.Proof.Gen.KernelIdeal.Value
import proofs.«143314_j13666585936261_1_alg».proof.Proof.Gen.ReferenceIdeal.Run
import proofs.«143314_j13666585936261_1_alg».proof.Proof.Gen.ReferenceIdeal.Read
import proofs.«143314_j13666585936261_1_alg».proof.Proof.KernelArray
import proofs.«143314_j13666585936261_1_alg».proof.Proof.RefArray
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the pixel-unshuffle of the arguments, rows and
    columns regrouped in pairs: the kernel by its run, the reference by its run read operation by operation. -/
theorem algebraic : Cert.algebraic_KernelIdeal_ReferenceIdeal := by
  intro m ρ m' ρ' _ hagree
  refine ⟨_, Cert.PixelUnshuffle.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.PixelUnshuffle.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
